-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x2048 .f32) (main_arg1 : FVec F S64x2048 .f32) (main_arg2 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x2048 : Shape := ⟨2, ![8192, 2048]⟩
abbrev S64x2048 : Shape := ⟨2, ![64, 2048]⟩
abbrev S64 : Shape := ⟨1, ![64]⟩
abbrev S64x8192 : Shape := ⟨2, ![64, 8192]⟩
abbrev S2048x2048 : Shape := ⟨2, ![2048, 2048]⟩
abbrev S64x1 : Shape := ⟨2, ![64, 1]⟩
abbrev S2048 : Shape := ⟨1, ![2048]⟩
abbrev S1x2048 : Shape := ⟨2, ![1, 2048]⟩
abbrev S8192x64 : Shape := ⟨2, ![8192, 64]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S64x8192, .f32⟩
  | .hbm, ⟨4, _⟩ => ⟨S8192x64, .f32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S64, .f32⟩
  | .local _ .vmem, ⟨4, _⟩ => ⟨S64x2048, .f32⟩
  | .local _ .vmem, ⟨5, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  inb_S2048x2048_S2048x2048_0_0 : ∀ a, (![0, 0] : Fin 2 → Nat) a + S2048x2048.size a ≤ S2048x2048.size a
  h_S2048x2048 : 0 < S2048x2048.numel
  inb_S64_S64_0 : ∀ a, (![0] : Fin 1 → Nat) a + S64.size a ≤ S64.size a
  h_S64 : 0 < S64.numel
  shapeCasts_S64_S64x1 : S64.ShapeCasts S64x1
  broadcasts_S64x1_S64x2048 : S64x1.Broadcasts S64x2048
  reduces_S64x2048_S2048 : S64x2048.Reduces [0] S2048
  shapeCasts_S2048_S1x2048 : S2048.ShapeCasts S1x2048
  broadcasts_S1x2048_S64x2048 : S1x2048.Broadcasts S64x2048
  transposes_S64x8192_S8192x64_1_0 : S64x8192.Transposes [1, 0] S8192x64
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .f32 = 32 ∨ (Rect.block (s := S8192x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)

variable [Facts₀]

def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S64x2048 : Shape := ⟨2, ![64, 2048]⟩
abbrev S64 : Shape := ⟨1, ![64]⟩
abbrev S2048x64 : Shape := ⟨2, ![2048, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.GateSpec.lean ====
/-
  The gate of a mixture-of-experts layer, as one function of its three arguments on the extended reals.

  For a token `i` (a row of `x`, 2048 channels) and an expert `e` (a row of `W`, an entry of `b`) the logit is
  `∑ k, x i k * W e k + b e`; a token's 64 logits are turned into weights by the softmax
  `exp (L e - top L) / ∑ e', exp (L e' - top L)`, where `top L` is the greatest of the 64, the maximum folded from the
  word of -∞. Both programs compute exactly this: the only laws that join them are the commutativity of a product, that
  the maximum with the fold's own starting value changes nothing, and `0 + s = s`. None of them needs a finite input.
-/
import Idealize.ShloMosaic.PureOps.Ideal
import Idealize.ShloMosaic.Lib.ValueIdx

noncomputable section

open scoped BigOperators

namespace GateSoftmax

open Idealize.ShloMosaic Idealize.ShloMosaic.ValueIdx

/-- The greatest of 64 extended reals: the maximum folded over them from the word of -∞. -/
def top (L : Fin 64 → EReal) : EReal :=
  (Finset.univ : Finset (Fin 64)).fold max (Ideal.ofBits .f32 0xFF800000#32) L

/-- The softmax of 64 extended reals at `e`: shifted by the greatest, exponentiated, divided by the sum of all 64. -/
def soft (L : Fin 64 → EReal) (e : Fin 64) : EReal :=
  Ideal.div (Ideal.exp (L e - top L)) (∑ e' : Fin 64, Ideal.exp (L e' - top L))

/-- Token `i`'s logit for expert `e`: the row of `x` against the row of `W`, plus the expert's bias. -/
def logit (x : (⟨2, ![8192, 2048]⟩ : Shape).Idx → EReal) (W : (⟨2, ![64, 2048]⟩ : Shape).Idx → EReal)
    (b : (⟨1, ![64]⟩ : Shape).Idx → EReal) (i : Fin 8192) (e : Fin 64) : EReal :=
  (∑ k : Fin 2048, x (ix2 i k) * W (ix2 e k)) + b (ix1 e)

/-- The gate's weights, tokens by experts. -/
def gate (x : (⟨2, ![8192, 2048]⟩ : Shape).Idx → EReal) (W : (⟨2, ![64, 2048]⟩ : Shape).Idx → EReal)
    (b : (⟨1, ![64]⟩ : Shape).Idx → EReal) : (⟨2, ![8192, 64]⟩ : Shape).Idx → EReal :=
  fun j => soft (logit x W b (j 0)) (j 1)

/-- The same weights laid experts by tokens: what the kernel's region leaves, before the final transpose. -/
def gateT (x : (⟨2, ![8192, 2048]⟩ : Shape).Idx → EReal) (W : (⟨2, ![64, 2048]⟩ : Shape).Idx → EReal)
    (b : (⟨1, ![64]⟩ : Shape).Idx → EReal) : (⟨2, ![64, 8192]⟩ : Shape).Idx → EReal :=
  fun j => soft (logit x W b (j 1)) (j 0)

/-- The fold starts at the word of -∞ and only grows, so a further maximum with that word changes nothing. -/
theorem max_top (L : Fin 64 → EReal) : max (Ideal.ofBits .f32 0xFF800000#32) (top L) = top L :=
  max_eq_right ((Finset.le_fold_max _).2 (Or.inl le_rfl))

/-- The softmax depends on its 64 values only. -/
theorem soft_congr {L L' : Fin 64 → EReal} (h : ∀ e, L e = L' e) (e : Fin 64) : soft L e = soft L' e := by
  rw [show L = L' from funext h]

end GateSoftmax

end
-- ==== Proof.RefGate.lean ====
/-
  The reference computes the gate: its last stage, read at (token p, expert e), is the softmax of token p's 64 logits
  at e. The stages are read one at a time at an index: the product with the transposed weights as a sum over the 2048
  channels, the bias laid along every row, the row's maximum as the fold of `max` over the 64 experts (a further maximum
  with -∞ changes nothing), the exponentials, and their sum over the 64 experts from zero.
-/
import proofs.«143070_g30124900614622_retrytranche2_1091_26_alg».proof.Proof.Gen.ReferenceIdeal.Read
import proofs.«143070_g30124900614622_retrytranche2_1091_26_alg».proof.Proof.GateSpec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open GateSoftmax

variable (x0 : (⟨S8192x2048, .f32⟩ : BufTy).Contents (Elt Ideal)) (x1 : (⟨S64x2048, .f32⟩ : BufTy).Contents (Elt Ideal))
  (x2 : (⟨S64, .f32⟩ : BufTy).Contents (Elt Ideal))

/-- The logits stage at (p, e): the sum over the channels of x at (p, k) times W at (e, k), plus b at e. -/
theorem logits_apply (p : Fin 8192) (e : Fin 64) :
    val_main_v4 (F := Ideal) x0 x1 x2 (ix2 p e) = logit x0 x1 x2 p e := by
  rw [val_main_v4_apply, val_main_v1_apply, val_main_v3_apply, val_main_v2_apply]
  have e1 : ∀ k : Fin 2048, lidx_main_v1 (ix2 p e) k = ix2 p k := fun k => funext fun a => Fin.ext (by
    match a with
    | ⟨0, _⟩ => rfl
    | ⟨1, _⟩ => rfl)
  have e2 : ∀ k : Fin 2048, idx_main_v0 (ridx_main_v1 (ix2 p e) k) = ix2 e k := fun k => funext fun a => Fin.ext (by
    match a with
    | ⟨0, _⟩ => rfl
    | ⟨1, _⟩ => rfl)
  have e3 : idx_main_v2 (idx_main_v3 (ix2 p e)) = ix1 e := funext fun a => Fin.ext (by
    match a with
    | ⟨0, _⟩ => rfl)
  show (∑ k : Fin 2048, x0 (lidx_main_v1 (ix2 p e) k) * val_main_v0 (F := Ideal) x1 (ridx_main_v1 (ix2 p e) k))
      + x2 (idx_main_v2 (idx_main_v3 (ix2 p e))) = _
  rw [e3]
  unfold logit
  refine congrArg (· + x2 (ix1 e)) (Finset.sum_congr rfl fun k _ => ?_)
  rw [val_main_v0_apply, e1 k, e2 k]

/-- Row p of the [8192, 64] logits with expert k put back on the reduced axis is (p, k). -/
theorem lift_row (h : S8192x64.Reduces [1] S8192) (p : Fin 8192) (k : Fin (S8192x64.size 1)) :
    h.lift (ix1 p) k = ix2 p (⟨k.val, k.isLt⟩ : Fin 64) := by
  funext c; apply Fin.ext
  fin_cases c <;> rfl

/-- The maximum stage at token p: the greatest of its 64 logits. -/
theorem rowTop_apply (p : Fin 8192) : val_main_v7 (F := Ideal) x0 x1 x2 (ix1 p) = top (logit x0 x1 x2 p) := by
  have h : S8192x64.Reduces [1] S8192 := by decide
  rw [val_main_v7_apply, val_main_v6_apply, val_main_cst_0_apply]
  unfold val_main_v5
  rw [Host.reduce_eq_fold_single FloatOps.maximumf _ _ reducesTo_S8192x64_S8192_d1 h h_S_]
  have hf : (val_main_v4 (F := Ideal) x0 x1 x2 ∘ h.lift (ix1 p)) = logit x0 x1 x2 p :=
    funext fun k => (congrArg (val_main_v4 (F := Ideal) x0 x1 x2) (lift_row h p k)).trans (logits_apply x0 x1 x2 p _)
  rw [hf]
  exact max_top _

/-- The exponentials stage at (p, e). -/
theorem exps_apply (p : Fin 8192) (e : Fin 64) :
    val_main_v11 (F := Ideal) x0 x1 x2 (ix2 p e) = Ideal.exp (logit x0 x1 x2 p e - top (logit x0 x1 x2 p)) := by
  rw [val_main_v11_apply, val_main_v10_apply, val_main_v9_apply, val_main_v8_apply, logits_apply]
  have e1 : idx_main_v8 (idx_main_v9 (ix2 p e)) = ix1 p := funext fun a => Fin.ext (by
    match a with
    | ⟨0, _⟩ => rfl)
  rw [e1, rowTop_apply]
  rfl

/-- The last stage at (p, e): the softmax of token p's logits at e. -/
theorem gate_apply (p : Fin 8192) (e : Fin 64) :
    val_main_v15 (F := Ideal) x0 x1 x2 (ix2 p e) = soft (logit x0 x1 x2 p) e := by
  rw [val_main_v15_apply, val_main_v14_apply, val_main_v13_apply, val_main_v12_apply, exps_apply]
  have e1 : idx_main_v13 (idx_main_v14 (ix2 p e)) = ix1 p := funext fun a => Fin.ext (by
    match a with
    | ⟨0, _⟩ => rfl)
  have e2 : ∀ k : Fin 64, idx_main_v12 (ix1 p) k = ix2 p k := fun k => funext fun a => Fin.ext (by
    match a with
    | ⟨0, _⟩ => rfl
    | ⟨1, _⟩ => rfl)
  rw [e1]
  have hs : (∑ k : Fin 64, val_main_v11 (F := Ideal) x0 x1 x2 (idx_main_v12 (ix1 p) k))
      = ∑ k : Fin 64, Ideal.exp (logit x0 x1 x2 p k - top (logit x0 x1 x2 p)) :=
    Finset.sum_congr rfl fun k _ => by rw [e2 k, exps_apply]
  rw [hs]
  show Ideal.div _ (Ideal.ofBits .f32 0x00000000#32 + _) = _
  rw [Ideal.ofBits_zero_f32, zero_add]
  rfl

/-- The reference's result is the gate. -/
theorem result_eq : val_main_v15 (F := Ideal) x0 x1 x2 = gate x0 x1 x2 := by
  funext j
  obtain ⟨p, e, rfl⟩ : ∃ (p : Fin 8192) (e : Fin 64), j = ix2 p e := ⟨j 0, j 1, eq_ix2 j⟩
  exact gate_apply x0 x1 x2 p e

end Cert.ReferenceIdeal.RefValue

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.KernelBlock.lean ====
/-
  What the kernel's body stores for one block of 2048 tokens, read at (expert e, token q of the block): the softmax,
  over the 64 experts, of that token's logits at e.

  The body multiplies the weights [64, 2048] by the block of x [2048, 2048] contracting the channel axis of both, so
  the product at (e, q) is the sum over the channels of W at (e, k) times the block at (q, k); it adds the bias as a
  column; it takes the maximum and the sum DOWN each column (over the experts) and lays each back along the 64 rows.
-/
import proofs.«143070_g30124900614622_retrytranche2_1091_26_alg».proof.Proof.Gen.KernelIdeal.Skeleton
import proofs.«143070_g30124900614622_retrytranche2_1091_26_alg».proof.Proof.GateSpec
import proofs.«143070_g30124900614622_retrytranche2_1091_26_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx
open GateSoftmax ColumnLayout

/-- The body's one matrix product: both operands contract their channel axis. -/
abbrev D : DotDims S64x2048 S2048x2048 S64x2048 := dot_S64x2048_S2048x2048_S64x2048_1_1_0_0_n_n

/-! ## The product's operand indices, coordinate by coordinate -/

theorem lhs_0 (i : S64x2048.Idx) (q : D.contr.Idx) : (D.lhsIdx i q 0).val = (i 0).val := by
  unfold DotDims.lhsIdx
  rw [dif_neg (show ¬(0 : Fin S64x2048.rank) ∈ D.lhsBatch by decide),
    dif_pos (show (0 : Fin S64x2048.rank) ∈ D.lhsNonContracting by decide)]
  rfl
theorem lhs_1 (i : S64x2048.Idx) (q : D.contr.Idx) : (D.lhsIdx i q 1).val = (q ⟨0, by decide⟩).val :=
  D.lhsIdx_val_of_single rfl i q
theorem rhs_0 (i : S64x2048.Idx) (q : D.contr.Idx) : (D.rhsIdx i q 0).val = (i 1).val := by
  unfold DotDims.rhsIdx
  rw [dif_neg (show ¬(0 : Fin S2048x2048.rank) ∈ D.rhsBatch by decide),
    dif_pos (show (0 : Fin S2048x2048.rank) ∈ D.rhsNonContracting by decide)]
  rfl
theorem rhs_1 (i : S64x2048.Idx) (q : D.contr.Idx) : (D.rhsIdx i q 1).val = (q ⟨0, by decide⟩).val :=
  D.rhsIdx_val_of_single rfl i q

/-- The product into the zero accumulator at (e, q): the sum over the channels of the left operand at (e, k) times the
    right operand at (q, k). -/
theorem product_apply (v0 : FVec Ideal S64x2048 .f32) (v1 : FVec Ideal S2048x2048 .f32) (e : Fin 64) (q : Fin 2048) :
    matmul D none v0 v1 (constant (F := Ideal) S64x2048 .f32 0x00000000#32) (ix2 e q)
      = ∑ k : Fin 2048, v0 (ix2 e k) * v1 (ix2 q k) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 e q) ((contrEquiv1 D 2048 rfl rfl).symm k) = ix2 e k := funext fun a => Fin.ext (by
    match a with
    | ⟨0, _⟩ => exact lhs_0 _ _
    | ⟨1, _⟩ => exact (lhs_1 _ _).trans hk)
  have er : D.rhsIdx (ix2 e q) ((contrEquiv1 D 2048 rfl rfl).symm k) = ix2 q k := funext fun a => Fin.ext (by
    match a with
    | ⟨0, _⟩ => exact rhs_0 _ _
    | ⟨1, _⟩ => exact (rhs_1 _ _).trans hk)
  rw [el, er]

/-! ## The body's stages -/

/-- The block's logits, experts by tokens. -/
def logitsBlk (v0 : FVec Ideal S64x2048 .f32) (v1 : FVec Ideal S2048x2048 .f32) (v3 : FVec Ideal S64 .f32) :
    FVec Ideal S64x2048 .f32 :=
  addf (matmul D none v0 v1 (constant (F := Ideal) S64x2048 .f32 0x00000000#32))
    (broadcastTo S64x2048 (shapeCast S64x1 v3 shapeCasts_S64_S64x1) broadcasts_S64x1_S64x2048)

/-- Each column's maximum, laid back along the 64 rows. -/
def colMax (s : FVec Ideal S64x2048 .f32) : FVec Ideal S64x2048 .f32 :=
  broadcastTo S64x2048 (shapeCast S1x2048
    (multiReduction .maximumf [0] S2048 s 0xFF800000#32 reduces_S64x2048_S2048 (.inl rfl) rfl) shapeCasts_S2048_S1x2048)
    broadcasts_S1x2048_S64x2048

/-- Each column's sum, laid back along the 64 rows. -/
def colSum (s : FVec Ideal S64x2048 .f32) : FVec Ideal S64x2048 .f32 :=
  broadcastTo S64x2048 (shapeCast S1x2048
    (multiReduction .add [0] S2048 s 0x00000000#32 reduces_S64x2048_S2048 (.inl rfl) rfl) shapeCasts_S2048_S1x2048)
    broadcasts_S1x2048_S64x2048

/-- The exponentials of the entries less their column's maximum. -/
def expsBlk (s : FVec Ideal S64x2048 .f32) : FVec Ideal S64x2048 .f32 := exp (subf s (colMax s))

/-- The stored value is the exponentials over their column sums. -/
theorem pay_eq (v0 : FVec Ideal S64x2048 .f32) (v1 : FVec Ideal S2048x2048 .f32) (v3 : FVec Ideal S64 .f32) :
    k0_pay1 (F := Ideal) v0 v1 v3
      = divf (expsBlk (logitsBlk v0 v1 v3)) (colSum (expsBlk (logitsBlk v0 v1 v3))) := rfl

/-! ## The stages at (e, q) -/

/-- The logits of a block at token q: the softmax's 64 arguments. -/
def blockLogit (v0 : FVec Ideal S64x2048 .f32) (v1 : FVec Ideal S2048x2048 .f32) (v3 : FVec Ideal S64 .f32)
    (q : Fin 2048) (e : Fin 64) : EReal :=
  (∑ k : Fin 2048, v0 (ix2 e k) * v1 (ix2 q k)) + v3 (ix1 e)

theorem logitsBlk_apply (v0 : FVec Ideal S64x2048 .f32) (v1 : FVec Ideal S2048x2048 .f32) (v3 : FVec Ideal S64 .f32)
    (e : Fin 64) (q : Fin 2048) : logitsBlk v0 v1 v3 (ix2 e q) = blockLogit v0 v1 v3 q e := by
  unfold logitsBlk blockLogit
  rw [addf_apply, product_apply]
  exact congrArg (_ + ·) ((broadcastTo_a1_ab_apply _ broadcasts_S64x1_S64x2048 e q).trans
    (shapeCast_a_a1_apply v3 shapeCasts_S64_S64x1 e 0))

/-- Column q of the [64, 2048] block with row k put back on the reduced axis is (k, q). -/
theorem lift_col (h : S64x2048.Reduces [0] S2048) (q : Fin 2048) (k : Fin (S64x2048.size 0)) :
    h.lift (ix1 q) k = ix2 (⟨k.val, k.isLt⟩ : Fin 64) q := by
  funext c; apply Fin.ext
  fin_cases c <;> rfl

theorem colMax_apply (s : FVec Ideal S64x2048 .f32) (e : Fin 64) (q : Fin 2048) :
    colMax s (ix2 e q) = top fun e' => s (ix2 e' q) := by
  unfold colMax
  refine (broadcastTo_1b_ab_apply _ broadcasts_S1x2048_S64x2048 e q).trans ?_
  refine (shapeCast_a_1a_apply _ shapeCasts_S2048_S1x2048 0 q).trans ?_
  refine (Ideal.multiReduction_maximumf_single s 0xFF800000#32 reduces_S64x2048_S2048 (.inl rfl) rfl (ix1 q)).trans ?_
  have hf : (s ∘ (reduces_S64x2048_S2048).lift (ix1 q)) = fun e' : Fin 64 => s (ix2 e' q) :=
    funext fun k => congrArg s (lift_col _ q k)
  rw [hf]
  rfl

theorem colSum_apply (s : FVec Ideal S64x2048 .f32) (e : Fin 64) (q : Fin 2048) :
    colSum s (ix2 e q) = ∑ e' : Fin 64, s (ix2 e' q) := by
  unfold colSum
  refine (broadcastTo_1b_ab_apply _ broadcasts_S1x2048_S64x2048 e q).trans ?_
  refine (shapeCast_a_1a_apply _ shapeCasts_S2048_S1x2048 0 q).trans ?_
  refine (Ideal.multiReduction_add_single s 0x00000000#32 reduces_S64x2048_S2048 (.inl rfl) rfl (ix1 q)).trans ?_
  exact Finset.sum_congr rfl fun k _ => congrArg s (lift_col _ q k)

theorem expsBlk_apply (s : FVec Ideal S64x2048 .f32) (e : Fin 64) (q : Fin 2048) :
    expsBlk s (ix2 e q) = Ideal.exp (s (ix2 e q) - top fun e' => s (ix2 e' q)) := by
  show Ideal.exp (s (ix2 e q) - colMax s (ix2 e q)) = _
  rw [colMax_apply]

/-- THE STORED VALUE at (e, q): the softmax of token q's logits at e. -/
theorem pay_apply (v0 : FVec Ideal S64x2048 .f32) (v1 : FVec Ideal S2048x2048 .f32) (v3 : FVec Ideal S64 .f32)
    (e : Fin 64) (q : Fin 2048) :
    k0_pay1 (F := Ideal) v0 v1 v3 (ix2 e q) = soft (blockLogit v0 v1 v3 q) e := by
  rw [pay_eq]
  show Ideal.div (expsBlk (logitsBlk v0 v1 v3) (ix2 e q)) (colSum (expsBlk (logitsBlk v0 v1 v3)) (ix2 e q)) = _
  rw [colSum_apply]
  simp only [expsBlk_apply, logitsBlk_apply]
  rfl

/-- The stored value against the gate: when the first loaded block is the weights, the third the bias, and row `y 1`
    of the second is row `i 1` of x, the stored value at `y` is the gate's weight of token `i 1` for expert `i 0 = y 0`.
    (The body multiplies W by x, the gate x by W: the product commutes.) -/
theorem pay_gateT (x : S8192x2048.Idx → EReal) (W : S64x2048.Idx → EReal) (b : S64.Idx → EReal)
    (v0 : FVec Ideal S64x2048 .f32) (v1 : FVec Ideal S2048x2048 .f32) (v3 : FVec Ideal S64 .f32)
    (y : S64x2048.Idx) (i : S64x8192.Idx)
    (hW : ∀ (e' : Fin 64) (k : Fin 2048), v0 (ix2 e' k) = W (ix2 e' k))
    (hb : ∀ e' : Fin 64, v3 (ix1 e') = b (ix1 e'))
    (hx : ∀ (q : Fin 2048) (p : Fin 8192) (k : Fin 2048), q.val = (y 1).val → p.val = (i 1).val →
      v1 (ix2 q k) = x (ix2 p k))
    (hi : (i 0).val = (y 0).val) :
    k0_pay1 (F := Ideal) v0 v1 v3 y = gateT x W b i := by
  obtain ⟨e, q, rfl⟩ : ∃ (e : Fin 64) (q : Fin 2048), y = ix2 e q := ⟨y 0, y 1, eq_ix2 y⟩
  obtain ⟨e2, p, rfl⟩ : ∃ (e2 : Fin 64) (p : Fin 8192), i = ix2 e2 p := ⟨i 0, i 1, eq_ix2 i⟩
  obtain rfl : e2 = e := Fin.ext hi
  rw [pay_apply]
  show soft (blockLogit v0 v1 v3 q) e2 = soft (logit x W b p) e2
  refine soft_congr (fun e' => ?_) e2
  unfold blockLogit logit
  rw [hb e']
  refine congrArg (· + b (ix1 e')) (Finset.sum_congr rfl fun k _ => ?_)
  rw [hW e' k, hx q p k rfl rfl, mul_comm]

end Cert.KernelIdeal.BlockValue

end
-- ==== Proof.KernelArray.lean ====
/-
  From blocks to the array. Grid point t stages rows 2048·t … 2048·t + 2047 of x, the whole of W and of b, and writes
  back columns 2048·t … 2048·t + 2047 of the [64, 8192] result: what it writes is that block of ONE function of the
  arguments, the gate laid experts by tokens. The four blocks tile the result's columns, so after the run the array IS
  that function.
-/
import proofs.«143070_g30124900614622_retrytranche2_1091_26_alg».proof.Proof.Gen.KernelIdeal.Frame
import proofs.«143070_g30124900614622_retrytranche2_1091_26_alg».proof.Proof.KernelBlock
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open GateSoftmax

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the four points: x's row block moves with the result's column block; W and b stay at
    block zero; the result's row block is zero and its column block one of the four. -/
theorem idx_facts : ∀ t : Fin cfg0.N,
    win0_0.index t (0 : Fin 2) = win0_3.index t (1 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) ≤ 3 :=
  (by decide +kernel : ∀ t : Fin grid0.N, _)

/-- Every one of the four column blocks is some point's. -/
theorem idx_onto : ∀ q1 : Fin 4, ∃ t : Fin cfg0.N, win0_3.index t = ![0, q1.val] :=
  (by decide +kernel : ∀ q1 : Fin 4, ∃ t : Fin grid0.N, win0_3.index t = ![0, q1.val])

/-- WHAT POINT `t` WRITES BACK is block `t` of the gate, laid experts by tokens, of the arguments as the region
    finds them. -/
theorem flushed_eq (c : Dev nD) (t : Fin cfg0.N) :
    (dats m 0 c).flushed 3 t = ((cfg0.win 3).blk t).view.read (Elt Ideal)
      (gateT (V m c main_arg0) (V m c main_arg1) (V m c main_arg2)) := by
  show (cfg0.win 3).cut (grid0.coords t) ((dats m 0 c).after 3 t) = _
  rw [after0_3]
  unfold out0_3
  rw [View.canon_unit_zero zeros2]
  simp only [View.ld_unit_zero (S := S64x2048) zeros2, View.ld_unit_zero (S := S2048x2048) zeros2,
    View.ld_unit_zero (S := S64) zeros1]
  obtain ⟨f0, f1, f2, f3, f4, f5, f6⟩ := idx_facts t
  funext j
  show k0_pay1 (iblk m c 1 t) (iblk m c 0 t) (iblk m c 2 t) j
    = gateT (V m c main_arg0) (V m c main_arg1) (V m c main_arg2) (((cfg0.win 3).blk t).view.emb j)
  refine BlockValue.pay_gateT (V m c main_arg0) (V m c main_arg1) (V m c main_arg2) (iblk m c 1 t) (iblk m c 0 t)
    (iblk m c 2 t) j (((cfg0.win 3).blk t).view.emb j) ?_ ?_ ?_ ?_
  · intro e' k
    show V m c main_arg1 (((cfg0.win 1).blk t).view.emb (ix2 e' k)) = V m c main_arg1 (ix2 e' k)
    refine congrArg (V m c main_arg1) (funext fun a => Fin.ext ?_)
    match a with
    | ⟨0, _⟩ => show win0_1.index t (0 : Fin 2) * 64 + 1 * e'.val = e'.val; omega
    | ⟨1, _⟩ => show win0_1.index t (1 : Fin 2) * 2048 + 1 * k.val = k.val; omega
  · intro e'
    show V m c main_arg2 (((cfg0.win 2).blk t).view.emb (ix1 e')) = V m c main_arg2 (ix1 e')
    refine congrArg (V m c main_arg2) (funext fun a => Fin.ext ?_)
    match a with
    | ⟨0, _⟩ => show win0_2.index t (0 : Fin 1) * 64 + 1 * e'.val = e'.val; omega
  · intro q p k hq hp
    have hp' : p.val = win0_3.index t (1 : Fin 2) * 2048 + 1 * (j 1).val := hp
    show V m c main_arg0 (((cfg0.win 0).blk t).view.emb (ix2 q k)) = V m c main_arg0 (ix2 p k)
    refine congrArg (V m c main_arg0) (funext fun a => Fin.ext ?_)
    match a with
    | ⟨0, _⟩ => show win0_0.index t (0 : Fin 2) * 2048 + 1 * q.val = p.val; omega
    | ⟨1, _⟩ => show win0_0.index t (1 : Fin 2) * 2048 + 1 * k.val = k.val; omega
  · show win0_3.index t (0 : Fin 2) * 64 + 1 * (j 0).val = (j 0).val
    omega

/-- An index of the result is in point `t`'s block iff each coordinate is in the block's range on its axis. -/
theorem mem_blk (t : Fin cfg0.N) (i : S64x8192.Idx) :
    i ∈ ((cfg0.win 3).blk t).view.set ↔ ∀ a : Fin 2, win0_3.index t a * S64x2048.size a ≤ (i a).val
      ∧ (i a).val < win0_3.index t a * S64x2048.size a + S64x2048.size a := by
  show i ∈ ((View.whole main_v0).slice (win0_3.rect t)).set ↔ _
  rw [View.set_slice_whole, Rect.mem_set_unit]
  exact Iff.rfl

/-- Every index of the result is in some point's block: column c is in block c / 2048. -/
theorem covered (i : S64x8192.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  obtain ⟨t, ht⟩ := idx_onto ⟨(i 1).val / 2048, by omega⟩
  have q0 : win0_3.index t (0 : Fin 2) = 0 := congrFun ht 0
  have q1 : win0_3.index t (1 : Fin 2) = (i 1).val / 2048 := congrFun ht 1
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 2048 ≤ (i 1).val ∧ (i 1).val < win0_3.index t (1 : Fin 2) * 2048 + 2048
    omega

/-- THE RESULT ARRAY after the region: the gate, experts by tokens, of the arguments. -/
theorem final (c : Dev nD) :
    (dats m 0 c).arrAt 3 cfg0.N = gateT (V m c main_arg0) (V m c main_arg1) (V m c main_arg2) :=
  (dats m 0 c).arrAt_eq_of_cover 3 _ (fun t _ => flushed_eq m c t) covered

end Cert.KernelIdeal.ArrayValue

end
-- ==== Proof.KernelRun.lean ====
/-
  The kernel's whole program: the region leaves the gate laid experts by tokens, and the one operation after the
  region transposes it. A transpose read at (token p, expert e) is its operand at (e, p), so the program's result is
  the gate itself, tokens by experts; the three arguments are staged and never written back.
-/
import proofs.«143070_g30124900614622_retrytranche2_1091_26_alg».proof.Proof.KernelArray
import Idealize.ShloMosaic.Lib.StableHlo.Run
import Idealize.ShloMosaic.Lib.ValueLayout

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open GateSoftmax

variable (m : (ℓ : Loc nD τ sig) → Buf (Elt Ideal) ℓ) (ρ : Dev nD → PrngReg)

/-- The gate laid experts by tokens, transposed, is the gate laid tokens by experts. -/
theorem transpose_gateT (x : S8192x2048.Idx → EReal) (W : S64x2048.Idx → EReal) (b : S64.Idx → EReal)
    (h : S64x8192.Transposes [1, 0] S8192x64) : transpose S8192x64 [1, 0] (gateT x W b) h = gate x W b := by
  funext j
  obtain ⟨p, e, rfl⟩ : ∃ (p : Fin 8192) (e : Fin 64), j = ix2 p e := ⟨j 0, j 1, eq_ix2 j⟩
  exact transpose_ix2_apply (gateT x W b) h p e

/-- The program's result after the line that follows the region: the gate of the arguments. -/
theorem tail_eq (c : Dev nD) :
    Pipeline.afterTail₀ cfgs (dats m) 0 (V0 m) [hostOps1] c main_v1
      = gate (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
        (Proc.devRef .tc main_v0)
      = gateT (m ((c.tc : Thread nD τ).loc main_arg0)) (m ((c.tc : Thread nD τ).loc main_arg1))
          (m ((c.tc : Thread nD τ).loc main_arg2)) :=
    (Pipeline.withArrays_arr spec0 launch0.win.arr_inj c _ _ 3).trans (ArrayValue.final m c)
  rw [e]
  exact transpose_gateT _ _ _ _

/-- THE RUN: every weakly fair execution of the kernel's program terminates with its result at the gate of the
    arguments, and the arguments unchanged. -/
theorem run : θ_run defs (onTc (τ := τ) (main (F := Ideal))) ⟨m, fun _ => 0, ρ⟩ fun r => ∀ c : Dev nD,
      r.2.mem ((c.tc : Thread nD τ).loc main_v1)
        = gate (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.lean ====
/-
  A mixture-of-experts gate: for 8192 tokens of 2048 channels and 64 experts, the logits `x · Wᵀ + b` and their softmax
  over the experts.

  The kernel takes four blocks of 2048 tokens; for each it forms the transposed product `W · xᵀ` (experts by tokens),
  adds the bias as a column, takes the maximum and the sum down each column, and stores
  `exp (L - max) / Σ exp (L - max)`; one transpose after the region lays the result tokens by experts. The reference
  forms `x · Wᵀ + b` and takes the softmax along each row, its row maximum taken once more against -∞.

  On the extended reals both are ONE function of the three arguments (Proof/GateSpec.lean, `gate`): at (token p, expert e)
  the softmax of `fun e' => (∑ k, x p k * W e' k) + b e'` at `e`. The two sides differ by the order of the factors of each
  product (a product commutes on the extended reals), by a maximum with the value the fold of maxima started from, and by
  a zero added in front of the reference's sum; none of these needs the inputs finite, and the precondition is not opened.

  The reference's side is read stage by stage (Proof/RefGate.lean, over the generated run and its read-at-an-index
  lemmas); the kernel's side is the body's stored value at an index (Proof/KernelBlock.lean), the four blocks tiling the
  result (Proof/KernelArray.lean), and the transpose after the region (Proof/KernelRun.lean). The three frames are the
  generated ones; nothing was rewritten when the kernel was idealized, so `preserves` is trivial.
-/
import proofs.«143070_g30124900614622_retrytranche2_1091_26_alg».proof.Defs
import proofs.«143070_g30124900614622_retrytranche2_1091_26_alg».proof.Proof.Gen.Kernel
import proofs.«143070_g30124900614622_retrytranche2_1091_26_alg».proof.Proof.Gen.Kernel.Skeleton
import proofs.«143070_g30124900614622_retrytranche2_1091_26_alg».proof.Proof.Gen.Kernel.Launch
import proofs.«143070_g30124900614622_retrytranche2_1091_26_alg».proof.Proof.Gen.Kernel.Points
import proofs.«143070_g30124900614622_retrytranche2_1091_26_alg».proof.Proof.Gen.Kernel.Frame
import proofs.«143070_g30124900614622_retrytranche2_1091_26_alg».proof.Proof.Gen.KernelIdeal
import proofs.«143070_g30124900614622_retrytranche2_1091_26_alg».proof.Proof.Gen.KernelIdeal.Skeleton
import proofs.«143070_g30124900614622_retrytranche2_1091_26_alg».proof.Proof.Gen.KernelIdeal.Launch
import proofs.«143070_g30124900614622_retrytranche2_1091_26_alg».proof.Proof.Gen.KernelIdeal.Points
import proofs.«143070_g30124900614622_retrytranche2_1091_26_alg».proof.Proof.Gen.KernelIdeal.Frame
import proofs.«143070_g30124900614622_retrytranche2_1091_26_alg».proof.Proof.Gen.ReferenceIdeal
import proofs.«143070_g30124900614622_retrytranche2_1091_26_alg».proof.Proof.Gen.ReferenceIdeal.Run
import proofs.«143070_g30124900614622_retrytranche2_1091_26_alg».proof.Proof.Gen.ReferenceIdeal.Read
import proofs.«143070_g30124900614622_retrytranche2_1091_26_alg».proof.Proof.Gen.Pre_finite_inputs
import proofs.«143070_g30124900614622_retrytranche2_1091_26_alg».proof.Proof.RefGate
import proofs.«143070_g30124900614622_retrytranche2_1091_26_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, W and b, both programs end at the gate of those arguments. -/
theorem algebraic : Cert.algebraic_KernelIdeal_ReferenceIdeal := by
  intro m ρ m' ρ' _ hagree
  refine ⟨fun c => GateSoftmax.gate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v15_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
